-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4x2048 : Shape := ⟨2, ![4, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S8192x2048 .f32) (main_arg1 : FVec F S4x2048 .f32) (main_arg2 : FVec F S4x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  main_v13
-- ==== Kernel.lean ====
abbrev S8192x2048 : Shape := ⟨2, ![8192, 2048]⟩
abbrev S4x2048 : Shape := ⟨2, ![4, 2048]⟩
abbrev S_ : Shape := ⟨0, ![]⟩
abbrev S2048 : Shape := ⟨1, ![2048]⟩
abbrev S1x2048 : Shape := ⟨2, ![1, 2048]⟩
abbrev S4 : Shape := ⟨1, ![4]⟩
abbrev S1x4 : Shape := ⟨2, ![1, 4]⟩
abbrev S512x2048 : Shape := ⟨2, ![512, 2048]⟩
abbrev S512x4 : Shape := ⟨2, ![512, 4]⟩
abbrev S512 : Shape := ⟨1, ![512]⟩
abbrev S512x1 : Shape := ⟨2, ![512, 1]⟩
abbrev S1x1 : Shape := ⟨2, ![1, 1]⟩

abbrev nBuf : Space → Nat
  | .hbm => 10
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048, .f32⟩
  | .hbm, ⟨3, _⟩ => ⟨S_, .f32⟩
  | .hbm, ⟨4, _⟩ => ⟨S2048, .f32⟩
  | .hbm, ⟨5, _⟩ => ⟨S1x2048, .f32⟩
  | .hbm, ⟨6, _⟩ => ⟨S_, .f32⟩
  | .hbm, ⟨7, _⟩ => ⟨S4, .f32⟩
  | .hbm, ⟨8, _⟩ => ⟨S1x4, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S4x2048, .f32⟩
  | .local _ .vmem, ⟨3, _⟩ => ⟨S1x2048, .f32⟩
  | .local _ .vmem, ⟨4, _⟩ => ⟨S1x4, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S4x2048_S2048_d0 : S4x2048.ReducesTo [0] S2048
  h_S_ : 0 < S_.numel
  bcast_S2048_S1x2048_1 : S2048.BroadcastsInDim S1x2048 (![1] : Fin 1 → Fin S1x2048.rank)
  reducesTo_S4x2048_S4_d1 : S4x2048.ReducesTo [1] S4
  bcast_S4_S1x4_1 : S4.BroadcastsInDim S1x4 (![1] : Fin 1 → Fin S1x4.rank)
  inb_S512x2048_S512x2048_0_0 : ∀ a, (![0, 0] : Fin 2 → Nat) a + S512x2048.size a ≤ S512x2048.size a
  h_S512x2048 : 0 < S512x2048.numel
  inb_S4x2048_S4x2048_0_0 : ∀ a, (![0, 0] : Fin 2 → Nat) a + S4x2048.size a ≤ S4x2048.size a
  h_S4x2048 : 0 < S4x2048.numel
  reduces_S512x2048_S512 : S512x2048.Reduces [1] S512
  shapeCasts_S512_S512x1 : S512.ShapeCasts S512x1
  inb_S1x4_S1x1_0_0 : ∀ a, (![0, 0] : Fin 2 → Nat) a + S1x1.size a ≤ S1x4.size a
  h_S1x1 : 0 < S1x1.numel
  shapeCasts_S1x1_S1x1 : S1x1.ShapeCasts S1x1
  slices_S512x4_o0_0_S512x1 : S512x4.Slices ![0, 0] S512x1
  broadcasts_S1x1_S512x1 : S1x1.Broadcasts S512x1
  inb_S1x4_S1x1_0_1 : ∀ a, (![0, 1] : Fin 2 → Nat) a + S1x1.size a ≤ S1x4.size a
  slices_S512x4_o0_1_S512x1 : S512x4.Slices ![0, 1] S512x1
  inb_S1x4_S1x1_0_2 : ∀ a, (![0, 2] : Fin 2 → Nat) a + S1x1.size a ≤ S1x4.size a
  slices_S512x4_o0_2_S512x1 : S512x4.Slices ![0, 2] S512x1
  iota_S1x4_d1_w32 : S1x4.Iotas .tc 32 [1]
  natLt_1_32 : 1 < 32
  broadcasts_S512x1_S512x4 : S512x1.Broadcasts S512x4
  broadcasts_S1x4_S512x4 : S1x4.Broadcasts S512x4
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S4x2048_S512x4_1_1_0_0_n_n_wf : DotDims.WF S512x2048 S4x2048 S512x4 [1] [1] [0] [0] [] []
  dot_S512x4_S4x2048_S512x2048_1_0_0_1_n_n_wf : DotDims.WF S512x4 S4x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4.size a ≤ S1x4.size a
  hwx0_3 : ∀ i : grid0.Coords, EltTy.bits .f32 = 32 ∨ (Rect.block (s := S1x4) S1x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S4x2048_S512x4_1_1_0_0_n_n : DotDims S512x2048 S4x2048 S512x4 where
  lhsContracting := [1]
  rhsContracting := [1]
  lhsNonContracting := [0]
  rhsNonContracting := [0]
  lhsBatch := []
  rhsBatch := []
  wf := dot_S512x2048_S4x2048_S512x4_1_1_0_0_n_n_wf
def dot_S512x4_S4x2048_S512x2048_1_0_0_1_n_n : DotDims S512x4 S4x2048 S512x2048 where
  lhsContracting := [1]
  rhsContracting := [0]
  lhsNonContracting := [0]
  rhsNonContracting := [1]
  lhsBatch := []
  rhsBatch := []
  wf := dot_S512x4_S4x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where
  halias0_4 : Pipeline.Aliased win0 0 4

variable [Facts]
-- ==== ReferenceIdeal.lean ====
abbrev S8192x2048 : Shape := ⟨2, ![8192, 2048]⟩
abbrev S4x2048 : Shape := ⟨2, ![4, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S1x2048, .f32⟩
  | .hbm, ⟨62, _⟩ => ⟨S2048, .f32⟩
  | .hbm, ⟨63, _⟩ => ⟨S1x2048, .f32⟩
  | .hbm, ⟨64, _⟩ => ⟨S8192x2048, .f32⟩
  | .hbm, ⟨65, _⟩ => ⟨S8192x2048, .f32⟩
  | .hbm, ⟨66, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  slices_S4x2048_S1x2048_0_0 : S4x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S4x2048_S1x2048_1_0 : S4x2048.Slices ![1, 0] S1x2048
  slices_S4x2048_S1x2048_2_0 : S4x2048.Slices ![2, 0] S1x2048
  slices_S4x2048_S1x2048_3_0 : S4x2048.Slices ![3, 0] S1x2048

variable [Facts₀]

class Facts : Prop extends Facts₀ where

variable [Facts]
-- ==== Proof.CrossSpec.lean ====
/-
  A cross network of four layers on one row, at the extended reals, in its two arrangements.

  A row `x` over the columns `κ`, four weight rows `W i` and four bias rows `b i`. The layered arrangement
  starts from `cross₀ = x` and, four times, takes the sum `s` of the current row and puts
  `cross' k = s · x k · W i k + b i k + cross k`. The unrolled arrangement computes the four sums without the rows:
  with `S₀ = Σ x`, `U i = Σ_k x k · W i k` and `c i = Σ_k b i k` it takes `S (i+1) = S i · (U i + 1) + c i`,
  gathers the four sums into a vector by one-hot columns, and ends with
  `x k · (1 + Σ_i S i · W i k) + Σ_i b i k`. Both spell the zero a sum starts from.

  The two arrays built from them, row by row, are the functions the two programs compute.
-/
import Mathlib.Data.EReal.Operations
import Mathlib.Algebra.BigOperators.Group.Finset.Basic
import Idealize.ShloMosaic.Lib.ValueIdx

noncomputable section

open scoped BigOperators

namespace Cert.Cross

open Idealize.ShloMosaic Idealize.ShloMosaic.ValueIdx

variable {κ : Type} [Fintype κ]

/-! ## The layered arrangement -/

/-- One layer: the sum of the current row (from zero), times the input entry, times the weight, plus the bias, plus the
    current entry. -/
def layer (x w b cr : κ → EReal) : κ → EReal :=
  fun k => ((0 + ∑ k', cr k') * x k * w k + b k) + cr k

/-- Four layers, from the input row itself. -/
def refRow (x : κ → EReal) (W b : Fin 4 → κ → EReal) : κ → EReal :=
  layer x (W 3) (b 3) (layer x (W 2) (b 2) (layer x (W 1) (b 1) (layer x (W 0) (b 0) x)))

/-! ## The unrolled arrangement -/

/-- The sum of the input row. -/
def sum0 (x : κ → EReal) : EReal := ∑ k, x k
/-- The inner product of the input row with a weight row. -/
def inner (x w : κ → EReal) : EReal := ∑ k, x k * w k
/-- The sum of a bias row, from zero. -/
def biasSum (b : κ → EReal) : EReal := 0 + ∑ k, b k
/-- The sum of the row after one layer, -/
def sum1 (x : κ → EReal) (W b : Fin 4 → κ → EReal) : EReal := sum0 x * (inner x (W 0) + 1) + biasSum (b 0)
/-- after two, -/
def sum2 (x : κ → EReal) (W b : Fin 4 → κ → EReal) : EReal := sum1 x W b * (inner x (W 1) + 1) + biasSum (b 1)
/-- and after three. -/
def sum3 (x : κ → EReal) (W b : Fin 4 → κ → EReal) : EReal := sum2 x W b * (inner x (W 2) + 1) + biasSum (b 2)

/-- A one-hot column: one where the two layer numbers agree, zero elsewhere. -/
def hot (i j : Fin 4) : EReal := if i = j then 1 else 0

/-- The four sums gathered into a vector over the layers, one one-hot column at a time, from zero. -/
def sums (x : κ → EReal) (W b : Fin 4 → κ → EReal) (i : Fin 4) : EReal :=
  (((0 + sum0 x * hot i 0) + sum1 x W b * hot i 1) + sum2 x W b * hot i 2) + sum3 x W b * hot i 3

/-- The unrolled result. -/
def kerRow (x : κ → EReal) (W b : Fin 4 → κ → EReal) : κ → EReal :=
  fun k => x k * (1 + ∑ i : Fin 4, sums x W b i * W i k) + (0 + ∑ i : Fin 4, b i k)

/-! ## The arrays -/

/-- Row `r` of an `[8192, 2048]` array. -/
def rowX (x : (⟨2, ![8192, 2048]⟩ : Shape).Idx → EReal) (r : Fin 8192) : Fin 2048 → EReal := fun k => x (ix2 r k)
/-- The rows of a `[4, 2048]` array. -/
def rows4 (W : (⟨2, ![4, 2048]⟩ : Shape).Idx → EReal) : Fin 4 → Fin 2048 → EReal := fun i k => W (ix2 i k)

/-- The layered network applied to every row. -/
def refArr (x : (⟨2, ![8192, 2048]⟩ : Shape).Idx → EReal) (W b : (⟨2, ![4, 2048]⟩ : Shape).Idx → EReal) :
    (⟨2, ![8192, 2048]⟩ : Shape).Idx → EReal :=
  fun j => refRow (rowX x (j 0)) (rows4 W) (rows4 b) (j 1)

/-- The unrolled network applied to every row. -/
def kerArr (x : (⟨2, ![8192, 2048]⟩ : Shape).Idx → EReal) (W b : (⟨2, ![4, 2048]⟩ : Shape).Idx → EReal) :
    (⟨2, ![8192, 2048]⟩ : Shape).Idx → EReal :=
  fun j => kerRow (rowX x (j 0)) (rows4 W) (rows4 b) (j 1)

theorem refArr_apply (x : (⟨2, ![8192, 2048]⟩ : Shape).Idx → EReal) (W b : (⟨2, ![4, 2048]⟩ : Shape).Idx → EReal)
    (r : Fin 8192) (k : Fin 2048) : refArr x W b (ix2 r k) = refRow (rowX x r) (rows4 W) (rows4 b) k := rfl

theorem kerArr_apply (x : (⟨2, ![8192, 2048]⟩ : Shape).Idx → EReal) (W b : (⟨2, ![4, 2048]⟩ : Shape).Idx → EReal)
    (r : Fin 8192) (k : Fin 2048) : kerArr x W b (ix2 r k) = kerRow (rowX x r) (rows4 W) (rows4 b) k := rfl

end Cert.Cross

end
-- ==== Proof.LibERealSum.lean ====
/-
  Sums, minima and maxima of real numbers inside the extended reals: the inclusion of the reals carries a
  finite sum to the sum of the images, and a minimum or a maximum of two reals to that of their images.
-/
import Mathlib.Data.EReal.Operations
import Mathlib.Algebra.BigOperators.Group.Finset.Basic

open scoped BigOperators

namespace Cert.LibERealSum

/-- A finite sum of real numbers, each read as an extended real, is the real sum read as an extended real. -/
theorem coe_sum {ι : Type*} (s : Finset ι) (f : ι → ℝ) :
    (∑ k ∈ s, ((f k : ℝ) : EReal)) = ((∑ k ∈ s, f k : ℝ) : EReal) := by
  classical
  refine Finset.induction_on s ?_ ?_
  · simp
  · intro a s ha ih
    rw [Finset.sum_insert ha, Finset.sum_insert ha, ih, EReal.coe_add]

/-- The inclusion of the reals keeps a minimum. -/
theorem coe_min (a b : ℝ) : ((min a b : ℝ) : EReal) = min (a : EReal) (b : EReal) :=
  EReal.coe_strictMono.monotone.map_min

/-- The inclusion of the reals keeps a maximum. -/
theorem coe_max (a b : ℝ) : ((max a b : ℝ) : EReal) = max (a : EReal) (b : EReal) :=
  EReal.coe_strictMono.monotone.map_max

end Cert.LibERealSum
-- ==== Proof.CrossAlgebra.lean ====
/-
  The two arrangements of the four-layer cross network agree on finite inputs.

  Distributivity fails at the infinities of the extended reals, so the inputs are first replaced by real
  numbers: an extended real that is neither infinity is the image of its real part. Every definition of the
  specification then has a real twin, each extended-real definition at images of reals is the image of its
  twin, and the identity is proved in the real numbers. There the key fact is that the sum of a row after
  one layer is `(Σ cross) · (⟨x, w⟩ + 1) + Σ b`, so the sums after one, two and three layers are the unrolled
  `S₁, S₂, S₃`; the vector of sums, gathered by one-hot columns, has the entries `S₀, S₁, S₂, S₃`; and the
  last identity is a polynomial identity in the entries at one column.
-/
import proofs.«167995_j4286377361515_2_alg».proof.Proof.CrossSpec
import proofs.«167995_j4286377361515_2_alg».proof.Proof.LibERealSum
import Mathlib.Data.EReal.Basic
import Mathlib.Data.EReal.Operations
import Mathlib.Algebra.BigOperators.Fin
import Mathlib.Algebra.BigOperators.Ring.Finset
import Mathlib.Tactic.Ring

noncomputable section

open scoped BigOperators

namespace Cert.Cross

open Idealize.ShloMosaic Idealize.ShloMosaic.ValueIdx

variable {κ : Type} [Fintype κ]

/-! ## The real twins of the definitions -/

/-- One layer, in the real numbers. -/
def layerR (x w b cr : κ → ℝ) : κ → ℝ :=
  fun k => ((0 + ∑ k', cr k') * x k * w k + b k) + cr k

/-- Four layers, in the real numbers. -/
def refRowR (x : κ → ℝ) (W b : Fin 4 → κ → ℝ) : κ → ℝ :=
  layerR x (W 3) (b 3) (layerR x (W 2) (b 2) (layerR x (W 1) (b 1) (layerR x (W 0) (b 0) x)))

/-- The sum of a real row. -/
def sum0R (x : κ → ℝ) : ℝ := ∑ k, x k
/-- The inner product of two real rows. -/
def innerR (x w : κ → ℝ) : ℝ := ∑ k, x k * w k
/-- The sum of a real bias row, from zero. -/
def biasSumR (b : κ → ℝ) : ℝ := 0 + ∑ k, b k
/-- The sum of the row after one layer, -/
def sum1R (x : κ → ℝ) (W b : Fin 4 → κ → ℝ) : ℝ := sum0R x * (innerR x (W 0) + 1) + biasSumR (b 0)
/-- after two, -/
def sum2R (x : κ → ℝ) (W b : Fin 4 → κ → ℝ) : ℝ := sum1R x W b * (innerR x (W 1) + 1) + biasSumR (b 1)
/-- and after three. -/
def sum3R (x : κ → ℝ) (W b : Fin 4 → κ → ℝ) : ℝ := sum2R x W b * (innerR x (W 2) + 1) + biasSumR (b 2)

/-- A real one-hot column. -/
def hotR (i j : Fin 4) : ℝ := if i = j then 1 else 0

/-- The four real sums gathered into a vector. -/
def sumsR (x : κ → ℝ) (W b : Fin 4 → κ → ℝ) (i : Fin 4) : ℝ :=
  (((0 + sum0R x * hotR i 0) + sum1R x W b * hotR i 1) + sum2R x W b * hotR i 2) + sum3R x W b * hotR i 3

/-- The unrolled result, in the real numbers. -/
def kerRowR (x : κ → ℝ) (W b : Fin 4 → κ → ℝ) : κ → ℝ :=
  fun k => x k * (1 + ∑ i : Fin 4, sumsR x W b i * W i k) + (0 + ∑ i : Fin 4, b i k)

/-! ## The images of real rows -/

/-- A real row read in the extended reals. -/
def up (f : κ → ℝ) : κ → EReal := fun k => ((f k : ℝ) : EReal)

/-- Four real rows read in the extended reals. -/
def up4 (f : Fin 4 → κ → ℝ) : Fin 4 → κ → EReal := fun i => up (f i)

theorem up_apply (f : κ → ℝ) (k : κ) : up f k = ((f k : ℝ) : EReal) := rfl

theorem up4_apply (f : Fin 4 → κ → ℝ) (i : Fin 4) : up4 f i = up (f i) := rfl

/-- A row of extended reals none of which is infinite is the image of a real row. -/
theorem exists_up (x : κ → EReal) (hx : ∀ k, x k ≠ ⊥ ∧ x k ≠ ⊤) : ∃ x' : κ → ℝ, x = up x' :=
  ⟨fun k => (x k).toReal, funext fun k => (EReal.coe_toReal (hx k).2 (hx k).1).symm⟩

/-- Four such rows are the image of four real rows. -/
theorem exists_up4 (W : Fin 4 → κ → EReal) (hW : ∀ i k, W i k ≠ ⊥ ∧ W i k ≠ ⊤) :
    ∃ W' : Fin 4 → κ → ℝ, W = up4 W' :=
  ⟨fun i k => (W i k).toReal, funext fun i => funext fun k => (EReal.coe_toReal (hW i k).2 (hW i k).1).symm⟩

/-! ## Each definition at images is the image of its twin -/

theorem sum_up (f : κ → ℝ) : (∑ k, up f k) = ((∑ k, f k : ℝ) : EReal) :=
  Cert.LibERealSum.coe_sum Finset.univ f

/-- The image of a real sum is the sum of the images. -/
theorem coe_sum_univ (f : κ → ℝ) : ((∑ k, f k : ℝ) : EReal) = ∑ k, ((f k : ℝ) : EReal) :=
  (Cert.LibERealSum.coe_sum Finset.univ f).symm

theorem layer_up (x w b cr : κ → ℝ) : layer (up x) (up w) (up b) (up cr) = up (layerR x w b cr) := by
  funext k
  simp only [layer, layerR, up_apply, coe_sum_univ, EReal.coe_add, EReal.coe_mul, EReal.coe_zero]

theorem refRow_up (x : κ → ℝ) (W b : Fin 4 → κ → ℝ) : refRow (up x) (up4 W) (up4 b) = up (refRowR x W b) := by
  simp only [refRow, refRowR, up4_apply, layer_up]

theorem sum0_up (x : κ → ℝ) : sum0 (up x) = ((sum0R x : ℝ) : EReal) := by
  simp only [sum0, sum0R, sum_up]

theorem inner_up (x w : κ → ℝ) : inner (up x) (up w) = ((innerR x w : ℝ) : EReal) := by
  simp only [inner, innerR, up_apply, ← EReal.coe_mul]
  exact Cert.LibERealSum.coe_sum Finset.univ fun k => x k * w k

theorem biasSum_up (b : κ → ℝ) : biasSum (up b) = ((biasSumR b : ℝ) : EReal) := by
  simp only [biasSum, biasSumR, sum_up, EReal.coe_add, EReal.coe_zero]

theorem sum1_up (x : κ → ℝ) (W b : Fin 4 → κ → ℝ) :
    sum1 (up x) (up4 W) (up4 b) = ((sum1R x W b : ℝ) : EReal) := by
  simp only [sum1, sum1R, up4_apply, sum0_up, inner_up, biasSum_up, EReal.coe_add, EReal.coe_mul,
    EReal.coe_one]

theorem sum2_up (x : κ → ℝ) (W b : Fin 4 → κ → ℝ) :
    sum2 (up x) (up4 W) (up4 b) = ((sum2R x W b : ℝ) : EReal) := by
  simp only [sum2, sum2R, up4_apply, sum1_up, inner_up, biasSum_up, EReal.coe_add, EReal.coe_mul,
    EReal.coe_one]

theorem sum3_up (x : κ → ℝ) (W b : Fin 4 → κ → ℝ) :
    sum3 (up x) (up4 W) (up4 b) = ((sum3R x W b : ℝ) : EReal) := by
  simp only [sum3, sum3R, up4_apply, sum2_up, inner_up, biasSum_up, EReal.coe_add, EReal.coe_mul,
    EReal.coe_one]

theorem hot_up (i j : Fin 4) : hot i j = ((hotR i j : ℝ) : EReal) := by
  unfold hot hotR
  split
  · exact EReal.coe_one.symm
  · exact EReal.coe_zero.symm

theorem sums_up (x : κ → ℝ) (W b : Fin 4 → κ → ℝ) (i : Fin 4) :
    sums (up x) (up4 W) (up4 b) i = ((sumsR x W b i : ℝ) : EReal) := by
  simp only [sums, sumsR, sum0_up, sum1_up, sum2_up, sum3_up, hot_up, EReal.coe_add, EReal.coe_mul,
    EReal.coe_zero]

theorem kerRow_up (x : κ → ℝ) (W b : Fin 4 → κ → ℝ) : kerRow (up x) (up4 W) (up4 b) = up (kerRowR x W b) := by
  funext k
  simp only [kerRow, kerRowR, sums_up, up4_apply, up_apply, Fin.sum_univ_four, EReal.coe_add,
    EReal.coe_mul, EReal.coe_zero, EReal.coe_one]

/-! ## The identity in the real numbers -/

/-- The sum of a row after one layer. -/
theorem sum_layerR (x w b cr : κ → ℝ) :
    (∑ k, layerR x w b cr k) = (∑ k, cr k) * (innerR x w + 1) + biasSumR b := by
  have h : (∑ k, (0 + ∑ k', cr k') * x k * w k) = (∑ k', cr k') * ∑ k, x k * w k := by
    rw [Finset.mul_sum]
    refine Finset.sum_congr rfl fun k _ => ?_
    ring
  simp only [layerR, innerR, biasSumR, Finset.sum_add_distrib, h]
  ring

/-- The vector of sums has the four sums as its entries. -/
theorem sumsR_zero (x : κ → ℝ) (W b : Fin 4 → κ → ℝ) : sumsR x W b 0 = sum0R x := by
  simp [sumsR, hotR]

theorem sumsR_one (x : κ → ℝ) (W b : Fin 4 → κ → ℝ) : sumsR x W b 1 = sum1R x W b := by
  simp [sumsR, hotR]

theorem sumsR_two (x : κ → ℝ) (W b : Fin 4 → κ → ℝ) : sumsR x W b 2 = sum2R x W b := by
  simp [sumsR, hotR]

theorem sumsR_three (x : κ → ℝ) (W b : Fin 4 → κ → ℝ) : sumsR x W b 3 = sum3R x W b := by
  simp [sumsR, hotR]

/-- The row sums after zero, one, two and three layers are the unrolled sums. -/
theorem sum_layer1R (x : κ → ℝ) (W b : Fin 4 → κ → ℝ) :
    (∑ k, layerR x (W 0) (b 0) x k) = sum1R x W b := by
  rw [sum_layerR]; rfl

theorem sum_layer2R (x : κ → ℝ) (W b : Fin 4 → κ → ℝ) :
    (∑ k, layerR x (W 1) (b 1) (layerR x (W 0) (b 0) x) k) = sum2R x W b := by
  rw [sum_layerR, sum_layer1R]; rfl

theorem sum_layer3R (x : κ → ℝ) (W b : Fin 4 → κ → ℝ) :
    (∑ k, layerR x (W 2) (b 2) (layerR x (W 1) (b 1) (layerR x (W 0) (b 0) x)) k) = sum3R x W b := by
  rw [sum_layerR, sum_layer2R]; rfl

/-- One layer at one column, with the row sum named. -/
theorem layerR_apply (x w b cr : κ → ℝ) (k : κ) :
    layerR x w b cr k = (∑ k', cr k') * x k * w k + b k + cr k := by
  simp only [layerR, zero_add]

/-- The two arrangements agree in the real numbers. -/
theorem kerRowR_eq_refRowR (x : κ → ℝ) (W b : Fin 4 → κ → ℝ) : kerRowR x W b = refRowR x W b := by
  funext k
  have hk : kerRowR x W b k
      = x k * (1 + (sum0R x * W 0 k + sum1R x W b * W 1 k + sum2R x W b * W 2 k + sum3R x W b * W 3 k))
        + (b 0 k + b 1 k + b 2 k + b 3 k) := by
    simp only [kerRowR, Fin.sum_univ_four, sumsR_zero, sumsR_one, sumsR_two, sumsR_three, zero_add]
  have hr : refRowR x W b k
      = sum3R x W b * x k * W 3 k + b 3 k
        + (sum2R x W b * x k * W 2 k + b 2 k
          + (sum1R x W b * x k * W 1 k + b 1 k + (sum0R x * x k * W 0 k + b 0 k + x k))) := by
    simp only [refRowR]
    rw [layerR_apply, sum_layer3R, layerR_apply, sum_layer2R, layerR_apply, sum_layer1R, layerR_apply]
    rfl
  rw [hk, hr]
  ring

/-! ## The identity in the extended reals, on finite inputs -/

/-- On a row none of whose entries, weights or biases is infinite, the unrolled arrangement computes what the
    layered one does. -/
theorem kerRow_eq_refRow {κ : Type} [Fintype κ] (x : κ → EReal) (W b : Fin 4 → κ → EReal)
    (hx : ∀ k, x k ≠ ⊥ ∧ x k ≠ ⊤) (hW : ∀ i k, W i k ≠ ⊥ ∧ W i k ≠ ⊤) (hb : ∀ i k, b i k ≠ ⊥ ∧ b i k ≠ ⊤) :
    kerRow x W b = refRow x W b := by
  obtain ⟨x', rfl⟩ := exists_up x hx
  obtain ⟨W', rfl⟩ := exists_up4 W hW
  obtain ⟨b', rfl⟩ := exists_up4 b hb
  rw [kerRow_up, refRow_up, kerRowR_eq_refRowR]

/-- The same for the arrays, row by row. -/
theorem kerArr_eq_refArr (x : (⟨2, ![8192, 2048]⟩ : Shape).Idx → EReal) (W b : (⟨2, ![4, 2048]⟩ : Shape).Idx → EReal)
    (hx : ∀ j, x j ≠ ⊥ ∧ x j ≠ ⊤) (hW : ∀ j, W j ≠ ⊥ ∧ W j ≠ ⊤) (hb : ∀ j, b j ≠ ⊥ ∧ b j ≠ ⊤) :
    kerArr x W b = refArr x W b := by
  funext j
  show kerRow (rowX x (j 0)) (rows4 W) (rows4 b) (j 1) = refRow (rowX x (j 0)) (rows4 W) (rows4 b) (j 1)
  rw [kerRow_eq_refRow (rowX x (j 0)) (rows4 W) (rows4 b) (fun k => hx _) (fun i k => hW _) (fun i k => hb _)]

end Cert.Cross

end
-- ==== Proof.FiniteInputs.lean ====
/-
  The precondition says that every input entry is a real number.

  The printed predicate is the conjunction of three tests, one per input array, each the reduction by
  `and` over the whole array of the elementwise comparison `|v| < +∞`, where `|v| = max v (-v)` and the
  constant `0x7F800000` denotes `+∞`. If the conjunction is one, each reduction is one, so each comparison is
  one at every index; and `max v (-v) < ⊤` excludes both `v = ⊤` and `v = ⊥` (whose negation is `⊤`).
-/
import proofs.«167995_j4286377361515_2_alg».proof.Defs
import proofs.«167995_j4286377361515_2_alg».proof.Proof.Gen.Pre_finite_inputs
import Idealize.ShloMosaic.Lib.ReduceAll
import Idealize.ShloMosaic.Lib.ValueIdx
import Idealize.ShloMosaic.PureOps.Ideal.Laws

noncomputable section

namespace Cert.Cross.Finite

open Idealize.ShloMosaic Idealize.ShloMosaic.ValueIdx

/-- The constant the tests compare against denotes `+∞`. -/
theorem inf_eq_top : Ideal.ofBits .f32 0x7F800000#32 = (⊤ : EReal) := by
  simp [Ideal.ofBits, Ideal.ieee]

/-- An extended real whose absolute value is below `+∞` is neither infinity. -/
theorem ne_of_abs_lt_top (a : EReal) (h : max a (-a) < ⊤) : a ≠ ⊥ ∧ a ≠ ⊤ := by
  constructor
  · rintro rfl
    simp at h
  · rintro rfl
    simp at h

/-- The elementwise test, read back: where it is one the element is neither infinity. -/
theorem ne_of_test (a : EReal)
    (h : Ideal.cmp .olt (max a (-a)) (Ideal.ofBits .f32 0x7F800000#32) = 1#1) : a ≠ ⊥ ∧ a ≠ ⊤ := by
  rw [inf_eq_top] at h
  refine ne_of_abs_lt_top a ?_
  by_contra hn
  simp [Ideal.cmp, hn] at h

/-- A shape of rank zero has one index. -/
instance : Subsingleton Cert.Pre_finite_inputs.S_.Idx := ⟨fun a b => funext fun d => d.elim0⟩

/-- If the printed predicate is one, no entry of the three input arrays is infinite. -/
theorem finite_of_pre [Cert.Pre_finite_inputs.Facts]
    (x : FVec Ideal Cert.Pre_finite_inputs.S8192x2048 .f32) (W b : FVec Ideal Cert.Pre_finite_inputs.S4x2048 .f32)
    (h : Cert.Pre_finite_inputs.fn (F := Ideal) x W b = fun _ => 1#1) :
    (∀ j, x j ≠ ⊥ ∧ x j ≠ ⊤) ∧ (∀ j, W j ≠ ⊥ ∧ W j ≠ ⊤) ∧ (∀ j, b j ≠ ⊥ ∧ b j ≠ ⊤) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun j => ?_, fun j => ?_, fun j => ?_⟩
  · exact ne_of_test (x j) (Host.reduce_andi_all _ _ _ _ _ h1 j)
  · exact ne_of_test (W j) (Host.reduce_andi_all _ _ _ _ _ h2 j)
  · exact ne_of_test (b j) (Host.reduce_andi_all _ _ _ _ _ h3 j)

end Cert.Cross.Finite

end
-- ==== Proof.RefCross.lean ====
/-
  The layered program computes the layered network.

  The layered program is four copies of one group of operations. A group takes the current array `cross` (the input
  array itself for the first group, the previous group's result after that) and forms, at row `r` and column `k`,

    ((0 + Σ_k' cross (r, k')) · x (r, k) · W (i, k) + b (i, k)) + cross (r, k),

  the row sum being spread over the row by two broadcasts, and row `i` of the weights and of the biases being cut out,
  flattened and spread over all rows. That is one layer of the network of CrossSpec applied to row `r`. Four groups
  in a row are the four nested layers, which is `refArr`.
-/
import proofs.«167995_j4286377361515_2_alg».proof.Proof.Gen.ReferenceIdeal.Read
import proofs.«167995_j4286377361515_2_alg».proof.Proof.CrossSpec
import Idealize.ShloMosaic.Lib.ValueIdx
import Idealize.ShloMosaic.PureOps.Ideal.Laws

noncomputable section

open scoped BigOperators

namespace Cert.Cross.RefSide

open Cert.ReferenceIdeal Cert.ReferenceIdeal.Read Idealize.ShloMosaic Idealize.ShloMosaic.ValueIdx

/-- One layer applied to every row of an array `cr`: row `r` of the result is the layer of row `r` of the input,
    row `i` of the weights, row `i` of the biases and row `r` of `cr`. -/
def layerArr (i : Fin 4) (x0 : S8192x2048.Idx → EReal) (x1 x2 : S4x2048.Idx → EReal) (cr : S8192x2048.Idx → EReal) :
    S8192x2048.Idx → EReal :=
  fun j => layer (rowX x0 (j 0)) (rows4 x1 i) (rows4 x2 i) (rowX cr (j 0)) (j 1)

/-- The entry of a layer at row `r`, column `k`, from any three numbers that are the row sum of `cr`, the weight
    and the bias there. -/
theorem layer_point (i : Fin 4) (x0 : S8192x2048.Idx → EReal) (x1 x2 : S4x2048.Idx → EReal) (cr : S8192x2048.Idx → EReal)
    (r : Fin 8192) (k : Fin 2048) (s w b : EReal)
    (hs : s = 0 + ∑ k' : Fin 2048, cr (ix2 r k')) (hw : w = x1 (ix2 i k)) (hb : b = x2 (ix2 i k)) :
    ((s * x0 (ix2 r k)) * w + b) + cr (ix2 r k) = layerArr i x0 x1 x2 cr (ix2 r k) := by
  subst hs hw hb
  rfl

/-! ## The first group: stages 0 to 14, on the input array -/

theorem v14_eq (x0 : (⟨S8192x2048, .f32⟩ : BufTy).Contents (Elt Ideal)) (x1 x2 : (⟨S4x2048, .f32⟩ : BufTy).Contents (Elt Ideal)) :
    val_main_v14 (F := Ideal) x0 x1 x2 = layerArr 0 x0 x1 x2 x0 := by
  funext j
  obtain ⟨r, k, rfl⟩ : ∃ (r : Fin 8192) (k : Fin 2048), j = ix2 r k := ⟨j 0, j 1, eq_ix2 j⟩
  rw [val_main_v14_apply, val_main_v13_apply, val_main_v8_apply, val_main_v3_apply, val_main_v2_apply,
    val_main_v1_apply, val_main_v0_apply, val_main_cst_apply, val_main_v7_apply, val_main_v6_apply,
    val_main_v5_apply, val_main_v4_apply, val_main_v12_apply, val_main_v11_apply, val_main_v10_apply,
    val_main_v9_apply]
  simp only [Ideal.mulf_def, Ideal.addf_def, Ideal.ofBits_def, Ideal.ofBits_zero_f32]
  refine layer_point 0 x0 x1 x2 x0 r k _ _ _ ?_ ?_ ?_
  · refine congrArg (0 + ·) (Finset.sum_congr rfl fun k' _ => congrArg x0 ?_)
    exact funext fun a => Fin.ext (by match a with | ⟨0, _⟩ => rfl | ⟨1, _⟩ => rfl)
  · refine congrArg x1 (funext fun a => Fin.ext ?_)
    match a with
    | ⟨0, _⟩ => rfl
    | ⟨1, _⟩ => exact Nat.mod_eq_of_lt k.isLt
  · refine congrArg x2 (funext fun a => Fin.ext ?_)
    match a with
    | ⟨0, _⟩ => rfl
    | ⟨1, _⟩ => exact Nat.mod_eq_of_lt k.isLt

/-! ## The second group: stages 15 to 29, on the result of stage 14 -/

theorem v29_eq (x0 : (⟨S8192x2048, .f32⟩ : BufTy).Contents (Elt Ideal)) (x1 x2 : (⟨S4x2048, .f32⟩ : BufTy).Contents (Elt Ideal)) :
    val_main_v29 (F := Ideal) x0 x1 x2 = layerArr 1 x0 x1 x2 (val_main_v14 (F := Ideal) x0 x1 x2) := by
  funext j
  obtain ⟨r, k, rfl⟩ : ∃ (r : Fin 8192) (k : Fin 2048), j = ix2 r k := ⟨j 0, j 1, eq_ix2 j⟩
  rw [val_main_v29_apply, val_main_v28_apply, val_main_v23_apply, val_main_v18_apply, val_main_v17_apply,
    val_main_v16_apply, val_main_v15_apply, val_main_cst_0_apply, val_main_v22_apply, val_main_v21_apply,
    val_main_v20_apply, val_main_v19_apply, val_main_v27_apply, val_main_v26_apply, val_main_v25_apply,
    val_main_v24_apply]
  simp only [Ideal.mulf_def, Ideal.addf_def, Ideal.ofBits_def, Ideal.ofBits_zero_f32]
  refine layer_point 1 x0 x1 x2 (val_main_v14 (F := Ideal) x0 x1 x2) r k _ _ _ ?_ ?_ ?_
  · refine congrArg (0 + ·) (Finset.sum_congr rfl fun k' _ => congrArg (val_main_v14 (F := Ideal) x0 x1 x2) ?_)
    exact funext fun a => Fin.ext (by match a with | ⟨0, _⟩ => rfl | ⟨1, _⟩ => rfl)
  · refine congrArg x1 (funext fun a => Fin.ext ?_)
    match a with
    | ⟨0, _⟩ => rfl
    | ⟨1, _⟩ => exact Nat.mod_eq_of_lt k.isLt
  · refine congrArg x2 (funext fun a => Fin.ext ?_)
    match a with
    | ⟨0, _⟩ => rfl
    | ⟨1, _⟩ => exact Nat.mod_eq_of_lt k.isLt

/-! ## The third group: stages 30 to 44, on the result of stage 29 -/

theorem v44_eq (x0 : (⟨S8192x2048, .f32⟩ : BufTy).Contents (Elt Ideal)) (x1 x2 : (⟨S4x2048, .f32⟩ : BufTy).Contents (Elt Ideal)) :
    val_main_v44 (F := Ideal) x0 x1 x2 = layerArr 2 x0 x1 x2 (val_main_v29 (F := Ideal) x0 x1 x2) := by
  funext j
  obtain ⟨r, k, rfl⟩ : ∃ (r : Fin 8192) (k : Fin 2048), j = ix2 r k := ⟨j 0, j 1, eq_ix2 j⟩
  rw [val_main_v44_apply, val_main_v43_apply, val_main_v38_apply, val_main_v33_apply, val_main_v32_apply,
    val_main_v31_apply, val_main_v30_apply, val_main_cst_1_apply, val_main_v37_apply, val_main_v36_apply,
    val_main_v35_apply, val_main_v34_apply, val_main_v42_apply, val_main_v41_apply, val_main_v40_apply,
    val_main_v39_apply]
  simp only [Ideal.mulf_def, Ideal.addf_def, Ideal.ofBits_def, Ideal.ofBits_zero_f32]
  refine layer_point 2 x0 x1 x2 (val_main_v29 (F := Ideal) x0 x1 x2) r k _ _ _ ?_ ?_ ?_
  · refine congrArg (0 + ·) (Finset.sum_congr rfl fun k' _ => congrArg (val_main_v29 (F := Ideal) x0 x1 x2) ?_)
    exact funext fun a => Fin.ext (by match a with | ⟨0, _⟩ => rfl | ⟨1, _⟩ => rfl)
  · refine congrArg x1 (funext fun a => Fin.ext ?_)
    match a with
    | ⟨0, _⟩ => rfl
    | ⟨1, _⟩ => exact Nat.mod_eq_of_lt k.isLt
  · refine congrArg x2 (funext fun a => Fin.ext ?_)
    match a with
    | ⟨0, _⟩ => rfl
    | ⟨1, _⟩ => exact Nat.mod_eq_of_lt k.isLt

/-! ## The fourth group: stages 45 to 59, on the result of stage 44 -/

theorem v59_eq (x0 : (⟨S8192x2048, .f32⟩ : BufTy).Contents (Elt Ideal)) (x1 x2 : (⟨S4x2048, .f32⟩ : BufTy).Contents (Elt Ideal)) :
    val_main_v59 (F := Ideal) x0 x1 x2 = layerArr 3 x0 x1 x2 (val_main_v44 (F := Ideal) x0 x1 x2) := by
  funext j
  obtain ⟨r, k, rfl⟩ : ∃ (r : Fin 8192) (k : Fin 2048), j = ix2 r k := ⟨j 0, j 1, eq_ix2 j⟩
  rw [val_main_v59_apply, val_main_v58_apply, val_main_v53_apply, val_main_v48_apply, val_main_v47_apply,
    val_main_v46_apply, val_main_v45_apply, val_main_cst_2_apply, val_main_v52_apply, val_main_v51_apply,
    val_main_v50_apply, val_main_v49_apply, val_main_v57_apply, val_main_v56_apply, val_main_v55_apply,
    val_main_v54_apply]
  simp only [Ideal.mulf_def, Ideal.addf_def, Ideal.ofBits_def, Ideal.ofBits_zero_f32]
  refine layer_point 3 x0 x1 x2 (val_main_v44 (F := Ideal) x0 x1 x2) r k _ _ _ ?_ ?_ ?_
  · refine congrArg (0 + ·) (Finset.sum_congr rfl fun k' _ => congrArg (val_main_v44 (F := Ideal) x0 x1 x2) ?_)
    exact funext fun a => Fin.ext (by match a with | ⟨0, _⟩ => rfl | ⟨1, _⟩ => rfl)
  · refine congrArg x1 (funext fun a => Fin.ext ?_)
    match a with
    | ⟨0, _⟩ => rfl
    | ⟨1, _⟩ => exact Nat.mod_eq_of_lt k.isLt
  · refine congrArg x2 (funext fun a => Fin.ext ?_)
    match a with
    | ⟨0, _⟩ => rfl
    | ⟨1, _⟩ => exact Nat.mod_eq_of_lt k.isLt

/-! ## The four groups together -/

/-- The last stage of the layered program is the layered network applied to every row of the input: a row of a layer
    applied to every row is the layer of the rows, so the four groups nest into the four layers of `refRow`. -/
theorem ref_eq (x0 : (⟨S8192x2048, .f32⟩ : BufTy).Contents (Elt Ideal)) (x1 x2 : (⟨S4x2048, .f32⟩ : BufTy).Contents (Elt Ideal)) :
    val_main_v59 (F := Ideal) x0 x1 x2 = refArr x0 x1 x2 := by
  rw [v59_eq, v44_eq, v29_eq, v14_eq]
  rfl

end Cert.Cross.RefSide

end
-- ==== Proof.CrossBlock.lean ====
/-
  The unrolled cross network on one row, with the two bias sums it needs taken as given: the vector `bs` of the
  column sums of the bias rows (added at the end) and the vector `c` of the sums of each bias row (added to the
  running sum after each layer). With those two set to the sums of the bias rows it is the unrolled arrangement.
-/
import proofs.«167995_j4286377361515_2_alg».proof.Proof.CrossSpec

noncomputable section

open scoped BigOperators

namespace Cert.Cross

variable {κ : Type} [Fintype κ]

/-- The sum of the row after one layer, the layer's bias sum given, -/
def gsum1 (x : κ → EReal) (W : Fin 4 → κ → EReal) (c : Fin 4 → EReal) : EReal := sum0 x * (inner x (W 0) + 1) + c 0
/-- after two, -/
def gsum2 (x : κ → EReal) (W : Fin 4 → κ → EReal) (c : Fin 4 → EReal) : EReal := gsum1 x W c * (inner x (W 1) + 1) + c 1
/-- and after three. -/
def gsum3 (x : κ → EReal) (W : Fin 4 → κ → EReal) (c : Fin 4 → EReal) : EReal := gsum2 x W c * (inner x (W 2) + 1) + c 2

/-- The four sums gathered into a vector over the layers by one-hot columns, from zero. -/
def gsums (x : κ → EReal) (W : Fin 4 → κ → EReal) (c : Fin 4 → EReal) (i : Fin 4) : EReal :=
  (((0 + sum0 x * hot i 0) + gsum1 x W c * hot i 1) + gsum2 x W c * hot i 2) + gsum3 x W c * hot i 3

/-- The unrolled result over given bias sums. -/
def gkerRow (x : κ → EReal) (W : Fin 4 → κ → EReal) (bs : κ → EReal) (c : Fin 4 → EReal) : κ → EReal :=
  fun k => x k * (1 + ∑ i : Fin 4, gsums x W c i * W i k) + bs k

/-- With the bias sums computed from the bias rows, this is the unrolled arrangement. -/
theorem kerRow_eq_gkerRow (x : κ → EReal) (W b : Fin 4 → κ → EReal) :
    kerRow x W b = gkerRow x W (fun k => 0 + ∑ i : Fin 4, b i k) (fun i => biasSum (b i)) := rfl

end Cert.Cross

end
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.LibMatmulRows.lean ====
/-
  A matrix product that contracts the SECOND axis of both operands, an `[m, k]` matrix with the transpose of an
  `[n, k]` one, accumulated into the zero splat and read at an entry at the ideal values: entry `(p, j)` is the
  inner product of row `p` of the left operand with row `j` of the right one. General in the extents.
-/
import Idealize.ShloMosaic.Lib.Pipeline.Value
import Idealize.ShloMosaic.Lib.ValueIdx
import Idealize.ShloMosaic.PureOps.Ideal.Laws

noncomputable section

open scoped BigOperators

namespace Cert.LibMatmulRows

open Idealize.ShloMosaic Idealize.ShloMosaic.ValueIdx

variable {m k n : ℕ}

/-- The dimension numbers: each operand's second axis contracted, its first kept, no batch axes. -/
abbrev rowsDims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

variable (w : DotDims.WF ⟨2, ![m, k]⟩ ⟨2, ![n, k]⟩ ⟨2, ![m, n]⟩ [1] [1] [0] [0] [] [])

/-- The left operand is read in the row the result's first coordinate names, -/
theorem lhs_row (i : (⟨2, ![m, n]⟩ : Shape).Idx) (q : (rowsDims w).contr.Idx) :
    ((rowsDims w).lhsIdx i q 0).val = (i 0).val := by
  unfold DotDims.lhsIdx
  rw [dif_neg (show ¬((0 : Fin 2) ∈ (rowsDims w).lhsBatch) from List.not_mem_nil),
    dif_pos (show (0 : Fin 2) ∈ (rowsDims w).lhsNonContracting from List.mem_singleton.mpr rfl)]
  rfl

/-- and the right operand in the row the result's second coordinate names. -/
theorem rhs_row (i : (⟨2, ![m, n]⟩ : Shape).Idx) (q : (rowsDims w).contr.Idx) :
    ((rowsDims w).rhsIdx i q 0).val = (i 1).val := by
  unfold DotDims.rhsIdx
  rw [dif_neg (show ¬((0 : Fin 2) ∈ (rowsDims w).rhsBatch) from List.not_mem_nil),
    dif_pos (show (0 : Fin 2) ∈ (rowsDims w).rhsNonContracting from List.mem_singleton.mpr rfl)]
  rfl

/-- The product of an `[m, k]` matrix with the transpose of an `[n, k]` matrix (each operand's second axis
    contracted, no batch axes) accumulated into the zero splat, read at `(p, j)`: the sum over the contracted
    coordinate `c` of `A (p, c) · B (j, c)`. -/
theorem matmul_rows_zero_apply {φ₁ φ₂ : FTy} (prec : Option ContractPrecision)
    (A : FVec Ideal ⟨2, ![m, k]⟩ φ₁) (B : FVec Ideal ⟨2, ![n, k]⟩ φ₂) (p : Fin m) (j : Fin n) :
    matmul (rowsDims w) prec A B (constant (F := Ideal) ⟨2, ![m, n]⟩ .f32 0x00000000#32) (ix2 p j)
      = ∑ c : Fin k, A (ix2 p c) * B (ix2 j c) := by
  show FloatOps.matmul _ prec A B _ (ix2 p j) = _
  rw [Ideal.matmul_constant_zero_apply, ← Equiv.sum_comp (contrEquiv1 (rowsDims w) k rfl rfl).symm]
  refine Finset.sum_congr rfl fun c _ => ?_
  have c2 := contrEquiv1_symm_val (rowsDims w) k rfl rfl c
  have l2 : (rowsDims w).lhsIdx (ix2 p j) ((contrEquiv1 (rowsDims w) k rfl rfl).symm c) = ix2 p c :=
    funext fun ax => Fin.ext (by
      match ax with
      | ⟨0, _⟩ => exact lhs_row w _ _
      | ⟨1, _⟩ => exact ((rowsDims w).lhsIdx_val_of_single rfl _ _).trans c2)
  have r2 : (rowsDims w).rhsIdx (ix2 p j) ((contrEquiv1 (rowsDims w) k rfl rfl).symm c) = ix2 j c :=
    funext fun ax => Fin.ext (by
      match ax with
      | ⟨0, _⟩ => exact rhs_row w _ _
      | ⟨1, _⟩ => exact ((rowsDims w).rhsIdx_val_of_single rfl _ _).trans c2)
  rw [l2, r2]

end Cert.LibMatmulRows

end
-- ==== Proof.LibRowForms.lean ====
/-
  Three layout forms of a kernel body read at an index given by coordinates, general in the extents: a one-row
  matrix repeated down the rows ([1, b] → [a, b]), one column cut out of a matrix ([a, b] → [a, 1] at a column
  offset), and a one-hot row built from a lane counter (the counter compared with a constant, widened, and converted
  to a float at the ideal values): one where the lane is the constant, zero elsewhere.
-/
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowForms

open Idealize.ShloMosaic Idealize.ShloMosaic.ValueIdx

variable {α : Type}

/-- A `[1, b]` row broadcast to `[a, b]` reads, at `(p, c)`, the row's entry of column `c` (its unit coordinate
    written `u`, whatever it is). -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

/-- The column at offset `o` cut out of an `[a, b]` matrix reads, at `(p, u)`, the matrix at `(p, o)`. -/
theorem sliceColumn_apply {a b : ℕ} (o : ℕ) (ho : o < b) (x : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] x h (ix2 p u) = x (ix2 p ⟨o, ho⟩) := by
  refine extractStridedSlice_apply ![0, o] x h (ix2 p u) (ix2 p ⟨o, ho⟩) fun ax => ?_
  match ax with
  | ⟨0, _⟩ => show p.val = 0 + p.val; omega
  | ⟨1, _⟩ => show o = o + u.val; omega

/-- A lane counter below `n ≤ 2³²` compared with the constant `j < n`, widened to 32 bits and converted: one at
    lane `j`, zero elsewhere. -/
theorem oneHot_word (i j : ℕ) (hi : i < 2 ^ 32) (hj : j < 2 ^ 32) :
    FloatOps.sitofp (F := Ideal) .f32 ((IntOp.cmpi .eq (BitVec.ofNat 32 i) (BitVec.ofNat 32 j)).setWidth 32)
      = if i = j then (1 : EReal) else 0 := by
  show ((((BitVec.ofBool (BitVec.ofNat 32 i == BitVec.ofNat 32 j)).setWidth 32).toInt : ℝ) : EReal) = _
  rw [toInt_setWidth_bit]
  by_cases h : i = j
  · subst h
    rw [if_pos rfl, beq_self_eq_true]
    simp
  · have e : (BitVec.ofNat 32 i == BitVec.ofNat 32 j) = false := by
      rw [beq_eq_false_iff_ne]
      intro e
      apply h
      have := congrArg BitVec.toNat e
      rw [BitVec.toNat_ofNat, BitVec.toNat_ofNat, Nat.mod_eq_of_lt hi, Nat.mod_eq_of_lt hj] at this
      exact this
    rw [e, if_neg h]
    simp

end Cert.LibRowForms

end
-- ==== Proof.KernelPay.lean ====
/-
  What the kernel body stores, read at one entry of its block.

  The body loads a block `x` of 512 rows, the weights `W`, the row `bs` of column sums of the biases and the row
  `c` of the sums of each bias row. At row `p` and column `q` it stores the unrolled cross network of the row `p`
  of the block: the inner products of the row with the four weight rows (one matrix product), the sum of the row,
  the three running sums, the four sums gathered by one-hot columns, a second (four-term) matrix product with the
  weights, and the final `x · (1 + coefficient) + bs`.
-/
import proofs.«167995_j4286377361515_2_alg».proof.Proof.Gen.KernelIdeal.Frame
import proofs.«167995_j4286377361515_2_alg».proof.Proof.CrossBlock
import proofs.«167995_j4286377361515_2_alg».proof.Proof.LibKernelIdx
import proofs.«167995_j4286377361515_2_alg».proof.Proof.LibMatmulRows
import proofs.«167995_j4286377361515_2_alg».proof.Proof.LibRowForms
import Idealize.ShloMosaic.Lib.IdealHost

noncomputable section

open scoped BigOperators

namespace Cert.Cross.KernelPay

open Cert.KernelIdeal Cert.KernelIdeal.Gen Idealize.ShloMosaic Idealize.ShloMosaic.ValueIdx Cert.Cross

/-- Row `p` of a block. -/
def rowB (v0 : Vec Ideal S512x2048 .f32) (p : Fin 512) : Fin 2048 → EReal := fun k => v0 (ix2 p k)

/-- The first matrix product, at row `p` and layer `i`: the inner product of the row with weight row `i`. -/
theorem pay2_apply (v0 : Vec Ideal S512x2048 .f32) (v1 : Vec Ideal S4x2048 .f32) (p : Fin 512) (i : Fin 4) :
    k0_pay2 (F := Ideal) v0 v1 (ix2 p i) = inner (rowB v0 p) (rows4 v1 i) := by
  unfold k0_pay2
  exact LibMatmulRows.matmul_rows_zero_apply _ (some .fp32) v0 v1 p i

/-- The lane sum made a column, at row `p`: the sum of the row. -/
theorem pay3_apply (v0 : Vec Ideal S512x2048 .f32) (p : Fin 512) (u : Fin 1) :
    k0_pay3 (F := Ideal) v0 (ix2 p u) = sum0 (rowB v0 p) := by
  unfold k0_pay3
  refine (LibKernelIdx.shapeCast_a_a1_apply _ _ p u).trans ?_
  exact LibKernelIdx.laneSum_apply v0 _ _ _ p

/-- A one-hot row: the lane counter compared with the constant `j`, widened and converted. -/
theorem mask_apply (h : S1x4.Iotas .tc 32 [1]) (hlt : 1 < 32) (j : ℕ) (hj : j < 4) (u : Fin 1) (i : Fin 4) :
    (sitofp .f32 (extui 32 (cmpi .eq (iota .tc S1x4 32 [1] h) (broadcast S1x4 (BitVec.ofNat 32 j))) hlt) : FVec Ideal S1x4 .f32) (ix2 u i)
      = hot i ⟨j, hj⟩ := by
  show FloatOps.sitofp (F := Ideal) .f32 ((IntOp.cmpi .eq (iota .tc S1x4 32 [1] h (ix2 u i)) (BitVec.ofNat 32 j)).setWidth 32) = _
  rw [iota_single_apply]
  show FloatOps.sitofp (F := Ideal) .f32 ((IntOp.cmpi .eq (BitVec.ofNat 32 i.val) (BitVec.ofNat 32 j)).setWidth 32) = _
  rw [LibRowForms.oneHot_word i.val j (by have := i.isLt; omega) (by omega)]
  unfold hot
  by_cases e : i.val = j
  · rw [if_pos e, if_pos (Fin.ext e)]
  · rw [if_neg e, if_neg (fun e' => e (congrArg Fin.val e'))]

/-- The running sum after the first layer, at row `p`, the bias sum read from the loaded `1 × 1` piece. -/
theorem pay4_apply (v0 : Vec Ideal S512x2048 .f32) (v1 : Vec Ideal S4x2048 .f32) (v5 : Vec Ideal S1x1 .f32) (p : Fin 512) (u : Fin 1) :
    k0_pay4 (F := Ideal) v0 v1 v5 (ix2 p u)
      = sum0 (rowB v0 p) * (inner (rowB v0 p) (rows4 v1 0) + 1) + v5 (ix2 0 0) := by
  obtain rfl : u = 0 := Subsingleton.elim _ _
  unfold k0_pay4
  show k0_pay3 v0 (ix2 p 0) * (extractStridedSlice S512x1 ![0, 0] (k0_pay2 v0 v1) _ (ix2 p 0) + Ideal.ofBits .f32 0x3F800000#32)
      + broadcastTo S512x1 (shapeCast S1x1 v5 _) _ (ix2 p 0) = _
  rw [pay3_apply, LibRowForms.sliceColumn_apply 0 (by norm_num) _ _ p 0, pay2_apply,
    LibRowForms.broadcastTo_1b_ab_apply _ _ p 0 0, shapeCast_self, Ideal.ofBits_one_f32]
  rfl

/-- After the second layer. -/
theorem pay5_apply (v0 : Vec Ideal S512x2048 .f32) (v1 : Vec Ideal S4x2048 .f32) (v5 v13 : Vec Ideal S1x1 .f32) (p : Fin 512) (u : Fin 1) :
    k0_pay5 (F := Ideal) v0 v1 v5 v13 (ix2 p u)
      = k0_pay4 (F := Ideal) v0 v1 v5 (ix2 p u) * (inner (rowB v0 p) (rows4 v1 1) + 1) + v13 (ix2 0 0) := by
  obtain rfl : u = 0 := Subsingleton.elim _ _
  unfold k0_pay5
  show k0_pay4 v0 v1 v5 (ix2 p 0) * (extractStridedSlice S512x1 ![0, 1] (k0_pay2 v0 v1) _ (ix2 p 0) + Ideal.ofBits .f32 0x3F800000#32)
      + broadcastTo S512x1 (shapeCast S1x1 v13 _) _ (ix2 p 0) = _
  rw [LibRowForms.sliceColumn_apply 1 (by norm_num) _ _ p 0, pay2_apply,
    LibRowForms.broadcastTo_1b_ab_apply _ _ p 0 0, shapeCast_self, Ideal.ofBits_one_f32]
  rfl

/-- After the third layer. -/
theorem pay6_apply (v0 : Vec Ideal S512x2048 .f32) (v1 : Vec Ideal S4x2048 .f32) (v5 v13 v21 : Vec Ideal S1x1 .f32) (p : Fin 512) (u : Fin 1) :
    k0_pay6 (F := Ideal) v0 v1 v5 v13 v21 (ix2 p u)
      = k0_pay5 (F := Ideal) v0 v1 v5 v13 (ix2 p u) * (inner (rowB v0 p) (rows4 v1 2) + 1) + v21 (ix2 0 0) := by
  obtain rfl : u = 0 := Subsingleton.elim _ _
  unfold k0_pay6
  show k0_pay5 v0 v1 v5 v13 (ix2 p 0) * (extractStridedSlice S512x1 ![0, 2] (k0_pay2 v0 v1) _ (ix2 p 0) + Ideal.ofBits .f32 0x3F800000#32)
      + broadcastTo S512x1 (shapeCast S1x1 v21 _) _ (ix2 p 0) = _
  rw [LibRowForms.sliceColumn_apply 2 (by norm_num) _ _ p 0, pay2_apply,
    LibRowForms.broadcastTo_1b_ab_apply _ _ p 0 0, shapeCast_self, Ideal.ofBits_one_f32]
  rfl

/-- The first one-hot column times the sum of the row, from zero. -/
theorem pay7_apply (v0 : Vec Ideal S512x2048 .f32) (p : Fin 512) (i : Fin 4) :
    k0_pay7 (F := Ideal) v0 (ix2 p i) = 0 + sum0 (rowB v0 p) * hot i 0 := by
  unfold k0_pay7
  show Ideal.ofBits .f32 0x00000000#32 + broadcastTo S512x4 (k0_pay3 v0) _ (ix2 p i)
      * broadcastTo S512x4 (sitofp .f32 (extui 32 (cmpi .eq (iota .tc S1x4 32 [1] _) (broadcast S1x4 0#32)) _) : FVec Ideal S1x4 .f32) _ (ix2 p i) = _
  rw [Ideal.ofBits_zero_f32, LibKernelIdx.broadcastTo_a1_ab_apply _ _ p i 0, pay3_apply,
    LibRowForms.broadcastTo_1b_ab_apply _ _ p i 0, mask_apply _ _ 0 (by norm_num) 0 i]
  rfl

/-- The second one-hot row. -/
theorem pay8_apply (hlt : 1 < 32) (u : Fin 1) (i : Fin 4) :
    (sitofp .f32 (extui 32 k0_pay8 hlt) : FVec Ideal S1x4 .f32) (ix2 u i) = hot i 1 := by
  unfold k0_pay8
  exact mask_apply _ _ 1 (by norm_num) u i

/-- The second matrix product, at `(p, q)`: the four-term sum over the layers. -/
theorem coef_apply (A : FVec Ideal S512x4 .f32) (v1 : FVec Ideal S4x2048 .f32) (p : Fin 512) (q : Fin 2048) :
    matmul dot_S512x4_S4x2048_S512x2048_1_0_0_1_n_n (some .fp32) A v1 (constant (F := Ideal) S512x2048 .f32 0x00000000#32) (ix2 p q)
      = ∑ i : Fin 4, A (ix2 p i) * v1 (ix2 i q) :=
  LibKernelIdx.matmul_zero_apply _ (some .fp32) A v1 p q

/-- The stored value at `(p, q)`, over any running sums `v12 v20 v28`, first gathered column `v38` and second mask
    word `v40`: the entry of the block times one plus the four-term product of the gathered sums with the weights,
    plus the bias column sum. -/
theorem pay1_apply (v0 : Vec Ideal S512x2048 .f32) (v1 : Vec Ideal S4x2048 .f32) (v12 v20 v28 : FVec Ideal S512x1 .f32)
    (h29 : S1x4.Iotas .tc 32 [1]) (v38 : FVec Ideal S512x4 .f32) (v40 : IVec S1x4 1) (v67 : Vec Ideal S1x2048 .f32)
    (hlt : 1 < 32) (p : Fin 512) (q : Fin 2048) :
    k0_pay1 (F := Ideal) v0 v1 v12 v20 v28 (iota .tc S1x4 32 [1] h29) v38 v40 v67 (ix2 p q)
      = v0 (ix2 p q) * (1 + ∑ i : Fin 4,
          (((v38 (ix2 p i) + v12 (ix2 p 0) * (sitofp .f32 (extui 32 v40 hlt) : FVec Ideal S1x4 .f32) (ix2 0 i))
            + v20 (ix2 p 0) * hot i 2) + v28 (ix2 p 0) * hot i 3) * v1 (ix2 i q))
        + v67 (ix2 0 q) := by
  unfold k0_pay1
  show v0 (ix2 p q) * (Ideal.ofBits .f32 0x3F800000#32
        + matmul dot_S512x4_S4x2048_S512x2048_1_0_0_1_n_n (some .fp32) _ v1 (constant (F := Ideal) S512x2048 .f32 0x00000000#32) (ix2 p q))
      + broadcastTo S512x2048 (shapeCast S1x2048 v67 _) _ (ix2 p q) = _
  rw [coef_apply, LibRowForms.broadcastTo_1b_ab_apply _ _ p q 0, shapeCast_self, Ideal.ofBits_one_f32]
  refine congrArg (fun z => v0 (ix2 p q) * (1 + z) + v67 (ix2 0 q)) (Finset.sum_congr rfl fun i _ => ?_)
  refine congrArg (· * v1 (ix2 i q)) ?_
  show ((v38 (ix2 p i) + broadcastTo S512x4 v12 _ (ix2 p i) * broadcastTo S512x4 (sitofp .f32 (extui 32 v40 _) : FVec Ideal S1x4 .f32) _ (ix2 p i))
        + broadcastTo S512x4 v20 _ (ix2 p i)
          * broadcastTo S512x4 (sitofp .f32 (extui 32 (cmpi .eq (iota .tc S1x4 32 [1] h29) (broadcast S1x4 2#32)) _) : FVec Ideal S1x4 .f32) _ (ix2 p i))
      + broadcastTo S512x4 v28 _ (ix2 p i)
          * broadcastTo S512x4 (sitofp .f32 (extui 32 (cmpi .eq (iota .tc S1x4 32 [1] h29) (broadcast S1x4 3#32)) _) : FVec Ideal S1x4 .f32) _ (ix2 p i) = _
  rw [LibKernelIdx.broadcastTo_a1_ab_apply v12 _ p i 0, LibKernelIdx.broadcastTo_a1_ab_apply v20 _ p i 0,
    LibKernelIdx.broadcastTo_a1_ab_apply v28 _ p i 0,
    LibRowForms.broadcastTo_1b_ab_apply _ _ p i 0, LibRowForms.broadcastTo_1b_ab_apply _ _ p i 0,
    LibRowForms.broadcastTo_1b_ab_apply _ _ p i 0,
    mask_apply h29 _ 2 (by norm_num) 0 i, mask_apply h29 _ 3 (by norm_num) 0 i]
  rfl

/-- The zero offsets, however spelt. -/
theorem hz : (![0, 0] : Fin 2 → Nat) = fun _ => 0 := funext fun a => by fin_cases a <;> rfl

/-- The three `1 × 1` pieces the body loads of the row of bias sums are its entries 0, 1, 2. -/
theorem ld_c0 (x3 : Vec Ideal S1x4 .f32) : View.ld x3 r0_2 (ix2 0 0) = x3 (ix2 0 0) :=
  congrArg x3 (funext fun a => Fin.ext (by match a with | ⟨0, _⟩ => rfl | ⟨1, _⟩ => rfl))
theorem ld_c1 (x3 : Vec Ideal S1x4 .f32) : View.ld x3 r0_3 (ix2 0 0) = x3 (ix2 0 1) :=
  congrArg x3 (funext fun a => Fin.ext (by match a with | ⟨0, _⟩ => rfl | ⟨1, _⟩ => rfl))
theorem ld_c2 (x3 : Vec Ideal S1x4 .f32) : View.ld x3 r0_4 (ix2 0 0) = x3 (ix2 0 2) :=
  congrArg x3 (funext fun a => Fin.ext (by match a with | ⟨0, _⟩ => rfl | ⟨1, _⟩ => rfl))

/-- WHAT THE BODY LEAVES in the output block, at `(p, q)`: the unrolled cross network of row `p` of the input
    block over the loaded weights, bias column sums and bias row sums, at column `q`. -/
theorem out4_apply (x0 : Vec Ideal S512x2048 .f32) (x1 : Vec Ideal S4x2048 .f32) (x2 : Vec Ideal S1x2048 .f32)
    (x3 : Vec Ideal S1x4 .f32) (p : Fin 512) (q : Fin 2048) :
    out0_4 (F := Ideal) x0 x1 x2 x3 (ix2 p q)
      = gkerRow (rowB x0 p) (rows4 x1) (fun k => x2 (ix2 0 k)) (fun i => x3 (ix2 0 i)) q := by
  unfold out0_4
  rw [View.canon_unit_zero hz]
  simp only [View.ld_unit_zero (S := S512x2048) hz, View.ld_unit_zero (S := S4x2048) hz, View.ld_unit_zero (S := S1x2048) hz]
  refine (pay1_apply x0 x1 _ _ _ _ _ _ x2 (by norm_num) p q).trans ?_
  simp only [pay7_apply, pay8_apply, pay6_apply, pay5_apply, pay4_apply]
  rw [ld_c0 x3, ld_c1 x3, ld_c2 x3]
  rfl

end Cert.Cross.KernelPay

end
-- ==== Proof.HostSums.lean ====
/-
  The two arrays computed from the bias array before the kernel's region, read at an index.

  From the bias array `b : [4, 2048]` the program first forms the column sums, `0 + Σ_i b (i, k)`, as a `[1, 2048]`
  array, and the row sums, `0 + Σ_k b (i, k)`, as a `[1, 4]` array: each is a sum along one axis from the zero
  constant, followed by a broadcast that puts a unit axis in front.
-/
import proofs.«167995_j4286377361515_2_alg».proof.Proof.Gen.KernelIdeal.Frame
import proofs.«167995_j4286377361515_2_alg».proof.Proof.CrossSpec
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.Cross.HostSums

open Cert.Cross Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-! ## The column sums of the bias array -/

/-- The `[1, 2048]` array as the region finds it: the broadcast of the sum of the bias array along its first axis from
    the zero constant. -/
theorem bsum_term (c : Dev nD) :
    (V m c main_v1 : S1x2048.Idx → EReal)
      = broadcastInDim S1x2048 ![1] bcast_S2048_S1x2048_1
          (Host.reduceAdd (F := Ideal) (m ((c : Thread nD τ).loc main_arg2)) (constant (F := Ideal) S_ .f32 0x00000000#32)
            reducesTo_S4x2048_S2048_d0 h_S_) := by
  dsimp only [Gen.V, Gen.hostOps0]
  after_results

/-- Its entry at column `k` is zero plus the sum of column `k` of the bias array. -/
theorem bsum_apply (c : Dev nD) (u : Fin 1) (k : Fin 2048) :
    V m c main_v1 (ix2 u k) = 0 + ∑ i : Fin 4, rows4 (m ((c : Thread nD τ).loc main_arg2)) i k := by
  refine (congrFun (bsum_term m c) (ix2 u k)).trans ?_
  rw [broadcastInDim_apply ![1] bcast_S2048_S1x2048_1 _ (ix2 u k) (ix1 k) (fun a => match a with
    | ⟨0, _⟩ => by show k.val = if (2048 : Nat) = 1 then 0 else k.val; rw [if_neg (by decide)])]
  simp only [Host.reduceAdd, Ideal.hostReduceAdd_def]
  rw [Ideal.hostReduceAdd_single reducesTo_S4x2048_S2048_d0 (by decide)]
  refine congrArg₂ (· + ·) Ideal.ofBits_zero_f32 (Finset.sum_congr rfl fun i _ => congrArg _ ?_)
  exact funext fun a => Fin.ext (by match a with | ⟨0, _⟩ => rfl | ⟨1, _⟩ => rfl)

/-! ## The row sums of the bias array -/

/-- The `[1, 4]` array as the region finds it: the broadcast of the sum of the bias array along its second axis from
    the zero constant. -/
theorem csum_term (c : Dev nD) :
    (V m c main_v3 : S1x4.Idx → EReal)
      = broadcastInDim S1x4 ![1] bcast_S4_S1x4_1
          (Host.reduceAdd (F := Ideal) (m ((c : Thread nD τ).loc main_arg2)) (constant (F := Ideal) S_ .f32 0x00000000#32)
            reducesTo_S4x2048_S4_d1 h_S_) := by
  dsimp only [Gen.V, Gen.hostOps0]
  after_results

/-- Its entry at column `i` is zero plus the sum of row `i` of the bias array, -/
theorem csum_apply_sum (c : Dev nD) (u : Fin 1) (i : Fin 4) :
    V m c main_v3 (ix2 u i) = 0 + ∑ k : Fin 2048, rows4 (m ((c : Thread nD τ).loc main_arg2)) i k := by
  refine (congrFun (csum_term m c) (ix2 u i)).trans ?_
  rw [broadcastInDim_apply ![1] bcast_S4_S1x4_1 _ (ix2 u i) (ix1 i) (fun a => match a with
    | ⟨0, _⟩ => by show i.val = if (4 : Nat) = 1 then 0 else i.val; rw [if_neg (by decide)])]
  simp only [Host.reduceAdd, Ideal.hostReduceAdd_def]
  rw [Ideal.hostReduceAdd_single reducesTo_S4x2048_S4_d1 (by decide)]
  refine congrArg₂ (· + ·) Ideal.ofBits_zero_f32 (Finset.sum_congr rfl fun k _ => congrArg _ ?_)
  exact funext fun a => Fin.ext (by match a with | ⟨0, _⟩ => rfl | ⟨1, _⟩ => rfl)

/-- which is the bias sum of that row. -/
theorem csum_apply (c : Dev nD) (u : Fin 1) (i : Fin 4) :
    V m c main_v3 (ix2 u i) = biasSum (rows4 (m ((c : Thread nD τ).loc main_arg2)) i) :=
  csum_apply_sum m c u i

end Cert.Cross.HostSums

end
-- ==== Proof.KernelFinal.lean ====
/-
  From what each grid point writes back to the whole result array.

  The grid has sixteen points; point `t` stages rows `512 t … 512 t + 511` of the input, the whole weight array and
  the two rows of bias sums, and writes back rows `512 t … 512 t + 511` of the result. What it writes, at row `p`
  and column `q` of its block, is the unrolled cross network of row `512 t + p` of the input at column `q`; so every
  point writes the block of ONE array — the unrolled network applied to every row — and the sixteen blocks tile
  that array (row `r` lies in the block of point `r / 512`).
-/
import proofs.«167995_j4286377361515_2_alg».proof.Proof.Gen.KernelIdeal.Value
import proofs.«167995_j4286377361515_2_alg».proof.Proof.KernelPay
import proofs.«167995_j4286377361515_2_alg».proof.Proof.HostSums
import proofs.«167995_j4286377361515_2_alg».proof.Proof.CrossSpec
import proofs.«167995_j4286377361515_2_alg».proof.Proof.CrossBlock
import Idealize.ShloMosaic.Lib.Pipeline.Value
import Idealize.ShloMosaic.Lib.ValueIdx

noncomputable section

open scoped BigOperators

namespace Cert.Cross.KernelFinal

open Cert.KernelIdeal Cert.KernelIdeal.Gen Idealize.ShloMosaic Idealize.ShloMosaic.TcCoe Idealize.ShloMosaic.ValueIdx
open Idealize.SL.Sem Cert.Cross
open Idealize.ShloMosaic.Pipeline (Dat)

variable (m : (ℓ : Loc nD τ sig) → Buf (Elt Ideal) ℓ) (ρ : Dev nD → PrngReg)

/-! ## One entry of a block is one entry of the unrolled network -/

/-- The body's result at row `p` and column `q` of a block is the unrolled network of the whole arrays at the array
    index `i`, once the block's row `p` is row `i 0` of the input, the staged weights are the weights, the two staged
    rows are the column sums and the row sums of the biases, and `q` is the column `i 1`. -/
theorem entry_eq (X : S8192x2048.Idx → EReal) (W B : S4x2048.Idx → EReal)
    (x0 : Vec Ideal S512x2048 .f32) (x1 : Vec Ideal S4x2048 .f32) (x2 : Vec Ideal S1x2048 .f32) (x3 : Vec Ideal S1x4 .f32)
    (p : Fin 512) (q : Fin 2048) (i : S8192x2048.Idx)
    (h0 : ∀ k : Fin 2048, x0 (ix2 p k) = X (ix2 (i 0) k))
    (h1 : ∀ (l : Fin 4) (k : Fin 2048), x1 (ix2 l k) = W (ix2 l k))
    (h2 : ∀ k : Fin 2048, x2 (ix2 0 k) = 0 + ∑ l : Fin 4, rows4 B l k)
    (h3 : ∀ l : Fin 4, x3 (ix2 0 l) = biasSum (rows4 B l))
    (hq : i 1 = q) :
    gkerRow (KernelPay.rowB x0 p) (rows4 x1) (fun k => x2 (ix2 0 k)) (fun l => x3 (ix2 0 l)) q = kerArr X W B i := by
  have e0 : KernelPay.rowB x0 p = rowX X (i 0) := funext h0
  have e1 : rows4 x1 = rows4 W := funext fun l => funext fun k => h1 l k
  have e2 : (fun k => x2 (ix2 0 k)) = (fun k => 0 + ∑ l : Fin 4, rows4 B l k) := funext h2
  have e3 : (fun l => x3 (ix2 0 l)) = (fun l => biasSum (rows4 B l)) := funext h3
  show _ = kerRow (rowX X (i 0)) (rows4 W) (rows4 B) (i 1)
  rw [kerRow_eq_gkerRow, hq, e0, e1, e2, e3]

/-! ## The index maps -/

/-- The printed index maps, decided over the grid: the input's and the result's windows move down one block of
    rows per point, the other three windows stay. -/
theorem idx_facts : ∀ t : Fin cfg0.N, win0_0.index t (0 : Fin 2) = t.val ∧ win0_0.index t (1 : Fin 2) = 0
    ∧ win0_4.index t (0 : Fin 2) = t.val ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## What a point writes back -/

/-- WHAT POINT `t` WRITES BACK is block `t` of the unrolled network applied to every row. -/
theorem flushed_eq (c : Dev nD) (t : Fin cfg0.N) :
    (dats m 0 c).flushed 4 t = ((cfg0.win 4).blk t).view.read (Elt Ideal)
      (kerArr (V m c main_arg0) (V m c main_arg1) (m ((c : Thread nD τ).loc main_arg2))) := by
  rw [Cert.KernelIdeal.Value.flushed4]
  obtain ⟨a00, a01, a40, a41, a10, a11, a20, a21, a30, a31⟩ := idx_facts t
  funext j
  obtain ⟨p, q, rfl⟩ : ∃ (p : Fin 512) (q : Fin 2048), j = ix2 p q := ⟨j 0, j 1, eq_ix2 j⟩
  show out0_4 (F := Ideal) (iblk m c 0 t) (iblk m c 1 t) (iblk m c 2 t) (iblk m c 3 t) (ix2 p q)
      = kerArr (V m c main_arg0) (V m c main_arg1) (m ((c : Thread nD τ).loc main_arg2)) (((cfg0.win 4).blk t).view.emb (ix2 p q))
  refine (KernelPay.out4_apply (iblk m c 0 t) (iblk m c 1 t) (iblk m c 2 t) (iblk m c 3 t) p q).trans ?_
  refine entry_eq (V m c main_arg0) (V m c main_arg1) (m ((c : Thread nD τ).loc main_arg2))
    (iblk m c 0 t) (iblk m c 1 t) (iblk m c 2 t) (iblk m c 3 t) p q (((cfg0.win 4).blk t).view.emb (ix2 p q)) ?_ ?_ ?_ ?_ ?_
  · intro k
    show V m c main_arg0 (((cfg0.win 0).blk t).view.emb (ix2 p k))
        = V m c main_arg0 (ix2 ((((cfg0.win 4).blk t).view.emb (ix2 p q)) 0) k)
    congr 1
    funext a; apply Fin.ext
    match a with
    | ⟨0, _⟩ => show win0_0.index t (0 : Fin 2) * 512 + 1 * p.val = win0_4.index t (0 : Fin 2) * 512 + 1 * p.val; omega
    | ⟨1, _⟩ => show win0_0.index t (1 : Fin 2) * 2048 + 1 * k.val = k.val; omega
  · intro l k
    show V m c main_arg1 (((cfg0.win 1).blk t).view.emb (ix2 l k)) = V m c main_arg1 (ix2 l k)
    congr 1
    funext a; apply Fin.ext
    match a with
    | ⟨0, _⟩ => show win0_1.index t (0 : Fin 2) * 4 + 1 * l.val = l.val; omega
    | ⟨1, _⟩ => show win0_1.index t (1 : Fin 2) * 2048 + 1 * k.val = k.val; omega
  · intro k
    refine Eq.trans ?_ (HostSums.bsum_apply m c 0 k)
    show V m c main_v1 (((cfg0.win 2).blk t).view.emb (ix2 0 k)) = V m c main_v1 (ix2 0 k)
    congr 1
    funext a; apply Fin.ext
    match a with
    | ⟨0, _⟩ => show win0_2.index t (0 : Fin 2) * 1 + 1 * 0 = 0; omega
    | ⟨1, _⟩ => show win0_2.index t (1 : Fin 2) * 2048 + 1 * k.val = k.val; omega
  · intro l
    refine Eq.trans ?_ (HostSums.csum_apply m c 0 l)
    show V m c main_v3 (((cfg0.win 3).blk t).view.emb (ix2 0 l)) = V m c main_v3 (ix2 0 l)
    congr 1
    funext a; apply Fin.ext
    match a with
    | ⟨0, _⟩ => show win0_3.index t (0 : Fin 2) * 1 + 1 * 0 = 0; omega
    | ⟨1, _⟩ => show win0_3.index t (1 : Fin 2) * 4 + 1 * l.val = l.val; omega
  · apply Fin.ext
    show win0_4.index t (1 : Fin 2) * 2048 + 1 * q.val = q.val
    omega

/-! ## The blocks tile the array -/

/-- An index of the array is in point `t`'s block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v4).slice (win0_4.rect t)).set ↔ _
  rw [View.set_slice_whole, Rect.mem_set_unit]
  exact Iff.rfl

/-- Every index of the array lies in the block of the point its row falls to: row `r` in that of point `r / 512`. -/
theorem cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 16 := N_0
  obtain ⟨t, ht⟩ : ∃ t : Fin cfg0.N, t.val = (i 0).val / 512 := ⟨⟨(i 0).val / 512, by omega⟩, rfl⟩
  obtain ⟨-, -, a40, a41, -⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

/-! ## The result array, and the run -/

/-- THE RESULT ARRAY after the run is the unrolled network applied to every row of the input as launched. -/
theorem final (c : Dev nD) :
    (dats m 0 c).arrAt 4 cfg0.N = kerArr (m ((c : Thread nD τ).loc main_arg0)) (m ((c : Thread nD τ).loc main_arg1))
      (m ((c : Thread nD τ).loc main_arg2)) := by
  have h := (dats m 0 c).arrAt_eq_of_cover 4
    (kerArr (V m c main_arg0) (V m c main_arg1) (m ((c : Thread nD τ).loc main_arg2)))
    (fun t _ => flushed_eq m c t) cover
  rw [V_main_arg0, V_main_arg1] at h
  exact h

/-- The run, read: the result array at the unrolled network of the arguments, the arguments unchanged. -/
theorem run : θ_run defs (onTc (τ := τ) (main (F := Ideal))) ⟨m, fun _ => 0, ρ⟩ fun r => ∀ c : Dev nD,
      r.2.mem ((c : Thread nD τ).loc main_v4) = kerArr (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Cross.KernelFinal

end
-- ==== Proof.lean ====
/-
  A cross network of four layers: a kernel that unrolls the layers against the layered reference.

  The reference keeps the running row `cross` and, four times, takes its sum `s` and puts
  `cross ← s · x · W i + b i + cross`. The kernel never forms the intermediate rows: the sum of the row after a layer
  is `s · (⟨x, W i⟩ + 1) + Σ b i`, so the four sums follow from the sum of `x`, the four inner products `⟨x, W i⟩`
  (one matrix product) and the sums of the bias rows (computed on the host before the call), and the last row is
  `x · (1 + Σ_i s_i · W i) + Σ_i b i` (a second matrix product, over the four layers). The two agree on real
  inputs by distributivity, which is where the precondition — every input entry finite — is used; at an infinite
  entry distributivity fails on the extended reals.

  The pieces: CrossSpec states both arrangements on one row and as arrays; CrossAlgebra proves them equal on finite
  inputs (through the reals); FiniteInputs reads finiteness off the precondition; RefCross shows that the reference's
  run ends at the layered array; KernelPay reads what the kernel body stores at an entry of its block, HostSums what
  the host computed before the call, and KernelFinal puts the blocks of the sixteen grid points together into the
  unrolled array. The three frames are the generated ones (the reference's is its run with the result dropped), and the
  idealized kernel is the kernel's own text read at the ideal values (no rewrite, so nothing to preserve).
-/
import proofs.«167995_j4286377361515_2_alg».proof.Defs
import proofs.«167995_j4286377361515_2_alg».proof.Proof.Gen.Kernel
import proofs.«167995_j4286377361515_2_alg».proof.Proof.Gen.Kernel.Skeleton
import proofs.«167995_j4286377361515_2_alg».proof.Proof.Gen.Kernel.Launch
import proofs.«167995_j4286377361515_2_alg».proof.Proof.Gen.Kernel.Points
import proofs.«167995_j4286377361515_2_alg».proof.Proof.Gen.Kernel.Frame
import proofs.«167995_j4286377361515_2_alg».proof.Proof.Gen.KernelIdeal
import proofs.«167995_j4286377361515_2_alg».proof.Proof.Gen.KernelIdeal.Skeleton
import proofs.«167995_j4286377361515_2_alg».proof.Proof.Gen.KernelIdeal.Launch
import proofs.«167995_j4286377361515_2_alg».proof.Proof.Gen.KernelIdeal.Points
import proofs.«167995_j4286377361515_2_alg».proof.Proof.Gen.KernelIdeal.Frame
import proofs.«167995_j4286377361515_2_alg».proof.Proof.Gen.ReferenceIdeal
import proofs.«167995_j4286377361515_2_alg».proof.Proof.Gen.Pre_finite_inputs
import proofs.«167995_j4286377361515_2_alg».proof.Proof.Gen.KernelIdeal.Value
import proofs.«167995_j4286377361515_2_alg».proof.Proof.Gen.ReferenceIdeal.Run
import proofs.«167995_j4286377361515_2_alg».proof.Proof.Gen.ReferenceIdeal.Read
import proofs.«167995_j4286377361515_2_alg».proof.Proof.CrossAlgebra
import proofs.«167995_j4286377361515_2_alg».proof.Proof.FiniteInputs
import proofs.«167995_j4286377361515_2_alg».proof.Proof.RefCross
import proofs.«167995_j4286377361515_2_alg».proof.Proof.KernelFinal
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the ideal values. -/
theorem preserves : Cert.preserves_Kernel_KernelIdeal := trivial

/-- On finite inputs the kernel's result, the unrolled network applied to every row, is the reference's result, the
    layered network applied to every row. -/
theorem algebraic : Cert.algebraic_KernelIdeal_ReferenceIdeal := by
  intro m ρ m' ρ' hpre hagree
  refine ⟨fun c => Cert.Cross.kerArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Cross.KernelFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.Cross.RefSide.ref_eq, (hagree c).1, (hagree c).2.1, (hagree c).2.2]
  obtain ⟨hx, hW, hb⟩ := Cert.Cross.Finite.finite_of_pre _ _ _ (hpre c)
  exact (Cert.Cross.kerArr_eq_refArr _ _ _ hx hW hb).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
